-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S16384x64 : Shape := ⟨2, ![16384, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S2048x64, .bf16⟩
  | .hbm, ⟨5, _⟩ => ⟨S1x64, .f32⟩
  | .hbm, ⟨6, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x64, .bf16⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x2048_S2048x64_1_0 : S64x2048.Transposes [1, 0] S2048x64
  bitsLt_bf16_f32 : FTy.bits .bf16 < FTy.bits .f32
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x2048_S1024x2048_0_0 : ∀ a, (![0, 0] : Fin 2 → Nat) a + S1024x2048.size a ≤ S1024x2048.size a
  h_S1024x2048 : 0 < S1024x2048.numel
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S2048x64_S1024x64_0_0 : ∀ a, (![0, 0] : Fin 2 → Nat) a + S1024x64.size a ≤ S2048x64.size a
  h_S1024x64 : 0 < S1024x64.numel
  inb_S2048x64_S1024x64_1024_0 : ∀ a, (![1024, 0] : Fin 2 → Nat) a + S1024x64.size a ≤ S2048x64.size a
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .bf16 = 32 ∨ (Rect.block (s := S2048x64) S2048x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.KernelBody.lean ====
/-
  The kernel body on one grid point, for every float instance.

  The body reads the weight block w (2048 × 64), the bias row b (1 × 64) and two activation blocks xa, xb
  (1024 × 2048 each: the two row blocks of ONE activation array that the point is handed through two windows), and
  fills its 2048 × 64 output block in two stores: rows 0–1023 with the row-wise softmax of xa·w + b, rows 1024–2047
  with that of xb·w + b. Before each store it loads the rows it is about to overwrite; the loaded values are not used.
  So after the body the output block is the overlay of the two stored halves, whatever it held before: the two
  rectangles tile the block.
-/
import proofs.«169328_g14070312862411_cont_week2b_1006_7_alg».proof.Proof.Gen.Kernel.Launch
import proofs.«169328_g14070312862411_cont_week2b_1006_7_alg».proof.Proof.Gen.Kernel.Skeleton
import proofs.«169328_g14070312862411_cont_week2b_1006_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight block. -/
abbrev rW : Rect S2048x64 := Rect.unit (s := S2048x64) ![0, 0] S2048x64.size inb_S2048x64_S2048x64_0_0
/-- The whole bias row. -/
abbrev rBias : Rect S1x64 := Rect.unit (s := S1x64) ![0, 0] S1x64.size inb_S1x64_S1x64_0_0
/-- A whole activation block. -/
abbrev rX : Rect S1024x2048 := Rect.unit (s := S1024x2048) ![0, 0] S1024x2048.size inb_S1024x2048_S1024x2048_0_0
/-- Rows 0–1023 of the output block. -/
abbrev rTop : Rect S2048x64 := Rect.unit (s := S2048x64) ![0, 0] S1024x64.size inb_S2048x64_S1024x64_0_0
/-- Rows 1024–2047 of the output block. -/
abbrev rBot : Rect S2048x64 := Rect.unit (s := S2048x64) ![1024, 0] S1024x64.size inb_S2048x64_S1024x64_1024_0

/-! ## What the body leaves in the output block -/

/-- The output block after the body, from the four input blocks: the lower half's store over the upper half's
    (the later store first). -/
def outBlock (xa xb : Vec F S1024x2048 .f32) (w : Vec F S2048x64 .bf16) (b : Vec F S1x64 .f32) : Vec F S2048x64 .f32 :=
  View.canon [⟨rBot, k0_pay4 (View.ld w rW) (View.ld b rBias) (View.ld xb rX)⟩,
              ⟨rTop, k0_pay3 (View.ld w rW) (View.ld b rBias) (View.ld xa rX)⟩]

/-- The two halves tile the block, so every index of it lies in one of them. -/
theorem halves_cover (p0 p1 : Vec F S1024x64 .f32) (y : S2048x64.Idx) :
    ∃ pc ∈ ([⟨rBot, p0⟩, ⟨rTop, p1⟩] : List (View.Piece (Elt F) S2048x64 .f32)), y ∈ pc.1.set :=
  View.cover_of_tiled [⟨rBot, p0⟩, ⟨rTop, p1⟩] S1024x64.size (by rfl) y

/-! ## The body's triple -/

set_option maxHeartbeats 1000000 in
/-- The body on whole staging memrefs — the four inputs at read contents xa, xb, w, b, the output at anything — runs to
    its end holding the inputs as they were and the output at `outBlock` of them. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x64 .bf16) (harg3 : arg3.IsWhole) (arg4 : Memref sig .tc .vmem S1x64 .f32) (harg4 : arg4.IsWhole)
    (arg5 : Memref sig .tc .vmem S2048x64 .f32) (harg5 : arg5.IsWhole)
    (xa xb : Vec F S1024x2048 .f32) (w : Vec F S2048x64 .bf16) (b : Vec F S1x64 .f32) (K : PUnit → sProp 𝕄) :
    iprop(owns (c : Thread nD τ) arg1 fullShare xa ∗ owns (c : Thread nD τ) arg2 fullShare xb ∗ owns (c : Thread nD τ) arg3 fullShare w
        ∗ owns (c : Thread nD τ) arg4 fullShare b ∗ (∃ d, owns (c : Thread nD τ) arg5 fullShare d)
        ∗ (iprop(owns (c : Thread nD τ) arg1 fullShare xa ∗ owns (c : Thread nD τ) arg2 fullShare xb ∗ owns (c : Thread nD τ) arg3 fullShare w
            ∗ owns (c : Thread nD τ) arg4 fullShare b ∗ owns (c : Thread nD τ) arg5 fullShare (outBlock xa xb w b)) -∗ K ⟨⟩))
      ⊢ wp frame (wpE (defs₀ (F := F)) Variants.none c none) E (cc0__router_kernel i arg1 harg1 arg2 harg2 arg3 harg3 arg4 harg4 arg5 harg5) K := by
  simp only [cc0__router_kernel_eq_skeleton]; unfold cc0__router_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (halves_cover _ _)

end Cert.Kernel.Hand

end
-- ==== Proof.LibSharedLaunch.lean ====
/-
  A frame run for ONE pipeline region whose windows may SHARE an array.

  When a kernel is handed one array through several input windows (two row blocks of one activation array per grid
  point, say), the windows' arrays are not pairwise distinct, and the array's full share has to be dealt among the
  windows on it. This file states the region's run once for that case: given, per core, how the distinct buffers behind
  the arrays — each whole at the full share at the region-entry contents — make the proof data's arrays at their shares
  (`hsplit`), a body obligation, and @main up to the region, every weakly fair execution terminates with every array of
  the pipeline at what the proof data compute after the last write-back and every other unscoped buffer as the region
  found it. The region invariant is the scoped buffers no window stages, at some contents; the generator register is
  not handed to the body.
-/
import Idealize.ShloMosaic.Lib.Pipeline.Frame

noncomputable section

namespace Cert.LibSharedLaunch

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The run of a program whose @main reaches one pipeline region (`hmain`) whose windows may share arrays: the layout
    facts but for the arrays' distinctness (`hw`), the deal of each shared array's full share among its windows
    (`hsplit`), the body obligation at every point (`hbody`), nothing owed (`howed`), and the invariant the scoped rest
    at every point (`hΦ`). Concludes the frame post: each window's array at `arrAt w N`, every unscoped buffer that is no
    window's array at its contents at the region's entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => (cfgs q).toPCfg (Val := Val)) defs₀) (onTc main) (s₀ m g) (FramePost cfgs dats p V) := by
  classical
  exact Pipeline.θ_run_region_noSem_shared cfgs dats () hinj p hw emb₁ defs₀ 𝒱₀ m g main
    (hbody := hbody) (hne := hne) (harr := harr) (hstage := hstage) (howed := howed)
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibSharedLaunch

end
-- ==== Proof.KernelRun.lean ====
/-
  The run of the whole program, for every float instance.

  @main computes three small arrays on the host — the transposed weights, their narrowing, the bias as a row — and then
  enters ONE pipeline region over 8 grid points. The region stages five windows: windows 0 and 1 are the even and the odd
  1024-row block of the SAME activation array (block 2t and block 2t + 1 at point t), window 2 the narrowed weights,
  window 3 the bias row, window 4 the 2048-row output block t. Because two input windows sit on one array, that array's
  full share is dealt in two halves, one to each window; the weights, the bias and the output are held whole.

  At every point each input window's staging buffer holds its block of the array as the region found it (fetched
  there, or — the weights and the bias, fetched at the first point only — left in place since), and the body leaves the
  output buffer at `outBlock` of those four blocks. The run therefore ends with the output array overwritten block by
  block by those values and every argument array as launched.
-/
import proofs.«169328_g14070312862411_cont_week2b_1006_7_alg».proof.Proof.KernelBody
import proofs.«169328_g14070312862411_cont_week2b_1006_7_alg».proof.Proof.LibSharedLaunch

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the three host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body at point `t` each input's buffer at
    its block and the output's at `outBlock` of the four input blocks; the invariant the scoped buffers no window
    stages; nothing owed; the activation array's share in halves between windows 0 and 1, the other inputs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The shared array's share, dealt -/

/-- The distinct buffers behind the five windows' arrays, listed: the activation array once. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact BI.bigSep_eq_bigSepL_of_eq [main_arg0, main_v1, main_v2, main_v3] (by decide) (by decide) _

/-- A window's array in the proof data's `arrays` at entry: the buffer behind it, whole, at the window's share and the
    region-entry contents. -/
theorem arr_pt (c : Dev nD) (w : Fin cfg0.W) (q : PosShare TreeShare) (hq : (dats m 0 c).share w = q) :
    (((cfg0.win w).arr.view.loc (c : Thread nD τ)) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl

/-- The buffers behind the arrays, each whole at the full share, make the proof data's arrays at entry: the activation
    array's full share is its two halves, one for each of the two windows on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, arr_pt m c 0 _ (share0 m c), arr_pt m c 1 _ (share1 m c), arr_pt m c 2 _ (share2 m c),
    arr_pt m c 3 _ (share3 m c), arr_pt m c 4 _ (share4 m c)]
  iintro ⟨H0, H1, H2, H3⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  iexact H3

/-! ## The run and the frame -/

set_option backward.isDefEq.respectTransparency.types false in
/-- From any memory with zero counters every weakly fair execution of @main terminates, and every final state has every
    array of the pipeline at what the proof data compute and every other unscoped buffer as the region found it. -/
theorem run_main : θ_run defs (onTc (τ := τ) (main (F := F))) (s₀ m ρ) (Pipeline.FramePost cfgs (dats m) 0 (V m)) :=
  Cert.LibSharedLaunch.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- info: 'Cert.Kernel.Hand.run_main' depends on axioms: [propext, Classical.choice, Quot.sound] -/
#guard_msgs in #print axioms run_main

/-- The frame: the program runs to its end and the three argument arrays end as launched. The activation array is
    window 0's, an input, never written back; the weights and the bias are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.Kernel.Hand

end
-- ==== Proof.KernelIdealBody.lean ====
/-
  The kernel body on one grid point, for every float instance.

  The body reads the weight block w (2048 × 64), the bias row b (1 × 64) and two activation blocks xa, xb
  (1024 × 2048 each: the two row blocks of ONE activation array that the point is handed through two windows), and
  fills its 2048 × 64 output block in two stores: rows 0–1023 with the row-wise softmax of xa·w + b, rows 1024–2047
  with that of xb·w + b. Before each store it loads the rows it is about to overwrite; the loaded values are not used.
  So after the body the output block is the overlay of the two stored halves, whatever it held before: the two
  rectangles tile the block.
-/
import proofs.«169328_g14070312862411_cont_week2b_1006_7_alg».proof.Proof.Gen.KernelIdeal.Launch
import proofs.«169328_g14070312862411_cont_week2b_1006_7_alg».proof.Proof.Gen.KernelIdeal.Skeleton
import proofs.«169328_g14070312862411_cont_week2b_1006_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight block. -/
abbrev rW : Rect S2048x64 := Rect.unit (s := S2048x64) ![0, 0] S2048x64.size inb_S2048x64_S2048x64_0_0
/-- The whole bias row. -/
abbrev rBias : Rect S1x64 := Rect.unit (s := S1x64) ![0, 0] S1x64.size inb_S1x64_S1x64_0_0
/-- A whole activation block. -/
abbrev rX : Rect S1024x2048 := Rect.unit (s := S1024x2048) ![0, 0] S1024x2048.size inb_S1024x2048_S1024x2048_0_0
/-- Rows 0–1023 of the output block. -/
abbrev rTop : Rect S2048x64 := Rect.unit (s := S2048x64) ![0, 0] S1024x64.size inb_S2048x64_S1024x64_0_0
/-- Rows 1024–2047 of the output block. -/
abbrev rBot : Rect S2048x64 := Rect.unit (s := S2048x64) ![1024, 0] S1024x64.size inb_S2048x64_S1024x64_1024_0

/-! ## What the body leaves in the output block -/

/-- The output block after the body, from the four input blocks: the lower half's store over the upper half's
    (the later store first). -/
def outBlock (xa xb : Vec F S1024x2048 .f32) (w : Vec F S2048x64 .bf16) (b : Vec F S1x64 .f32) : Vec F S2048x64 .f32 :=
  View.canon [⟨rBot, k0_pay4 (View.ld w rW) (View.ld b rBias) (View.ld xb rX)⟩,
              ⟨rTop, k0_pay3 (View.ld w rW) (View.ld b rBias) (View.ld xa rX)⟩]

/-- The two halves tile the block, so every index of it lies in one of them. -/
theorem halves_cover (p0 p1 : Vec F S1024x64 .f32) (y : S2048x64.Idx) :
    ∃ pc ∈ ([⟨rBot, p0⟩, ⟨rTop, p1⟩] : List (View.Piece (Elt F) S2048x64 .f32)), y ∈ pc.1.set :=
  View.cover_of_tiled [⟨rBot, p0⟩, ⟨rTop, p1⟩] S1024x64.size (by rfl) y

/-! ## The body's triple -/

set_option maxHeartbeats 1000000 in
/-- The body on whole staging memrefs — the four inputs at read contents xa, xb, w, b, the output at anything — runs to
    its end holding the inputs as they were and the output at `outBlock` of them. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x64 .bf16) (harg3 : arg3.IsWhole) (arg4 : Memref sig .tc .vmem S1x64 .f32) (harg4 : arg4.IsWhole)
    (arg5 : Memref sig .tc .vmem S2048x64 .f32) (harg5 : arg5.IsWhole)
    (xa xb : Vec F S1024x2048 .f32) (w : Vec F S2048x64 .bf16) (b : Vec F S1x64 .f32) (K : PUnit → sProp 𝕄) :
    iprop(owns (c : Thread nD τ) arg1 fullShare xa ∗ owns (c : Thread nD τ) arg2 fullShare xb ∗ owns (c : Thread nD τ) arg3 fullShare w
        ∗ owns (c : Thread nD τ) arg4 fullShare b ∗ (∃ d, owns (c : Thread nD τ) arg5 fullShare d)
        ∗ (iprop(owns (c : Thread nD τ) arg1 fullShare xa ∗ owns (c : Thread nD τ) arg2 fullShare xb ∗ owns (c : Thread nD τ) arg3 fullShare w
            ∗ owns (c : Thread nD τ) arg4 fullShare b ∗ owns (c : Thread nD τ) arg5 fullShare (outBlock xa xb w b)) -∗ K ⟨⟩))
      ⊢ wp frame (wpE (defs₀ (F := F)) Variants.none c none) E (cc0__router_kernel i arg1 harg1 arg2 harg2 arg3 harg3 arg4 harg4 arg5 harg5) K := by
  simp only [cc0__router_kernel_eq_skeleton]; unfold cc0__router_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (halves_cover _ _)

end Cert.KernelIdeal.Hand

end
-- ==== Proof.KernelIdealRun.lean ====
/-
  The run of the whole program, for every float instance.

  @main computes three small arrays on the host — the transposed weights, their narrowing, the bias as a row — and then
  enters ONE pipeline region over 8 grid points. The region stages five windows: windows 0 and 1 are the even and the odd
  1024-row block of the SAME activation array (block 2t and block 2t + 1 at point t), window 2 the narrowed weights,
  window 3 the bias row, window 4 the 2048-row output block t. Because two input windows sit on one array, that array's
  full share is dealt in two halves, one to each window; the weights, the bias and the output are held whole.

  At every point each input window's staging buffer holds its block of the array as the region found it (fetched
  there, or — the weights and the bias, fetched at the first point only — left in place since), and the body leaves the
  output buffer at `outBlock` of those four blocks. The run therefore ends with the output array overwritten block by
  block by those values and every argument array as launched.
-/
import proofs.«169328_g14070312862411_cont_week2b_1006_7_alg».proof.Proof.KernelIdealBody
import proofs.«169328_g14070312862411_cont_week2b_1006_7_alg».proof.Proof.LibSharedLaunch

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the three host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body at point `t` each input's buffer at
    its block and the output's at `outBlock` of the four input blocks; the invariant the scoped buffers no window
    stages; nothing owed; the activation array's share in halves between windows 0 and 1, the other inputs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The shared array's share, dealt -/

/-- The distinct buffers behind the five windows' arrays, listed: the activation array once. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact BI.bigSep_eq_bigSepL_of_eq [main_arg0, main_v1, main_v2, main_v3] (by decide) (by decide) _

/-- A window's array in the proof data's `arrays` at entry: the buffer behind it, whole, at the window's share and the
    region-entry contents. -/
theorem arr_pt (c : Dev nD) (w : Fin cfg0.W) (q : PosShare TreeShare) (hq : (dats m 0 c).share w = q) :
    (((cfg0.win w).arr.view.loc (c : Thread nD τ)) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl

/-- The buffers behind the arrays, each whole at the full share, make the proof data's arrays at entry: the activation
    array's full share is its two halves, one for each of the two windows on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, arr_pt m c 0 _ (share0 m c), arr_pt m c 1 _ (share1 m c), arr_pt m c 2 _ (share2 m c),
    arr_pt m c 3 _ (share3 m c), arr_pt m c 4 _ (share4 m c)]
  iintro ⟨H0, H1, H2, H3⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  iexact H3

/-! ## The run and the frame -/

set_option backward.isDefEq.respectTransparency.types false in
/-- From any memory with zero counters every weakly fair execution of @main terminates, and every final state has every
    array of the pipeline at what the proof data compute and every other unscoped buffer as the region found it. -/
theorem run_main : θ_run defs (onTc (τ := τ) (main (F := F))) (s₀ m ρ) (Pipeline.FramePost cfgs (dats m) 0 (V m)) :=
  Cert.LibSharedLaunch.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- info: 'Cert.KernelIdeal.Hand.run_main' depends on axioms: [propext, Classical.choice, Quot.sound] -/
#guard_msgs in #print axioms run_main

/-- The frame: the program runs to its end and the three argument arrays end as launched. The activation array is
    window 0's, an input, never written back; the weights and the bias are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.KernelIdeal.Hand

end
-- ==== Proof.KernelIdealBlocks.lean ====
/-
  The blocks the body works on, read at an index, on the extended reals.

  At grid point t (0 ≤ t < 8) the two activation windows hold rows 2048t … 2048t + 1023 and 2048t + 1024 … 2048t + 2047 of
  the activation array; the weight window holds the whole transposed weight matrix, so its entry (k, j) is the weight
  argument's entry (j, k) (narrowing a float is the identity on the extended reals); the bias window holds the bias as a
  row, so its entry (0, j) is the bias argument's entry j; and the output window is rows 2048t … 2048t + 2047 of the
  result. The output block's entry (p, q) is the first store's entry (p, q) for p < 1024 and the second store's entry
  (p − 1024, q) for p ≥ 1024.
-/
import proofs.«169328_g14070312862411_cont_week2b_1006_7_alg».proof.Proof.KernelIdealRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.StableHlo Idealize.ShloMosaic.ValueIdx
open Idealize.SL Idealize.SL.Sem
open Idealize.ShloMosaic.Pipeline (Dat Cfg Window)

/-! ## The two halves of the output block, for every float instance -/

section Halves

variable {F : FTy → Type} [FloatOps F]

theorem zero_off : (![0, 0] : Fin 2 → Nat) = fun _ => 0 := funext fun a => by fin_cases a <;> rfl

/-- The output block after the body is ONE function `Gb` of the block index as soon as each store's payload is that
    function through its rectangle: the first store's entry (p, q) is `Gb` at (p, q), the second's at (1024 + p, q). -/
theorem outBlock_eq (xa xb : Vec F S1024x2048 .f32) (w : Vec F S2048x64 .bf16) (b : Vec F S1x64 .f32)
    (Gb : Vec F S2048x64 .f32)
    (htop : ∀ (p : Fin 1024) (q : Fin 64) (h : p.val < 2048), k0_pay3 w b xa (ix2 p q) = Gb (ix2 (⟨p.val, h⟩ : Fin 2048) q))
    (hbot : ∀ (p : Fin 1024) (q : Fin 64) (h : 1024 + p.val < 2048), k0_pay4 w b xb (ix2 p q) = Gb (ix2 (⟨1024 + p.val, h⟩ : Fin 2048) q)) :
    outBlock xa xb w b = Gb := by
  unfold outBlock
  simp only [View.ld_unit_zero (S := S2048x64) zero_off, View.ld_unit_zero (S := S1x64) zero_off,
    View.ld_unit_zero (S := S1024x2048) zero_off]
  funext y
  refine View.canon_apply_of_pieces Gb _ ?_ y (halves_cover _ _ y)
  intro pc hpc x
  simp only [List.mem_cons, List.not_mem_nil, or_false] at hpc
  rcases hpc with rfl | rfl
  · obtain ⟨p, q, rfl⟩ : ∃ (p : Fin 1024) (q : Fin 64), x = ix2 p q := ⟨x 0, x 1, eq_ix2 x⟩
    have hlt : 1024 + p.val < 2048 := by have := p.isLt; omega
    refine (hbot p q hlt).trans (congrArg Gb ?_)
    funext a; apply Fin.ext
    match a with
    | ⟨0, _⟩ => show 1024 + p.val = 1024 + 1 * p.val; omega
    | ⟨1, _⟩ => show q.val = 0 + 1 * q.val; omega
  · obtain ⟨p, q, rfl⟩ : ∃ (p : Fin 1024) (q : Fin 64), x = ix2 p q := ⟨x 0, x 1, eq_ix2 x⟩
    have hlt : p.val < 2048 := by have := p.isLt; omega
    refine (htop p q hlt).trans (congrArg Gb ?_)
    funext a; apply Fin.ext
    match a with
    | ⟨0, _⟩ => show p.val = 0 + 1 * p.val; omega
    | ⟨1, _⟩ => show q.val = 0 + 1 * q.val; omega

end Halves

/-! ## The windows' block indices, decided over the grid -/

theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 8 := lt_of_lt_of_eq t.isLt N_0

/-! ## The input blocks, read at an index, on the extended reals -/

variable (m : (ℓ : Loc nD τ sig) → Buf (Elt Ideal) ℓ)

/-- The narrowed, transposed weights as the region finds them. -/
theorem V_weights (c : Dev nD) : (V m c main_v1 : S2048x64.Idx → EReal)
    = truncf (F := Ideal) .bf16 (transpose S2048x64 [1, 0] (m (c, Proc.tc.devRef main_arg1)) transposes_S64x2048_S2048x64_1_0) bitsLt_bf16_f32 := by
  dsimp only [V, hostOps0]; after_results

/-- The bias row as the region finds it. -/
theorem V_bias (c : Dev nD) : (V m c main_v2 : S1x64.Idx → EReal)
    = shapeCast S1x64 (m (c, Proc.tc.devRef main_arg2)) shapeCasts_S64_S1x64 := by
  dsimp only [V, hostOps0]; after_results; rfl

/-- The even activation block at point t, entry (p, k): row 2048t + p of the activation array. -/
theorem blk0_at (c : Dev nD) (t : Fin cfg0.N) (p : Fin 1024) (k : Fin 2048) (h : 2048 * t.val + p.val < 16384) :
    iblk m c 0 t (ix2 p k) = m ((c : Thread nD τ).loc main_arg0) (ix2 (⟨2048 * t.val + p.val, h⟩ : Fin 16384) k) := by
  unfold iblk
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 1024 + 1 * p.val = 2048 * t.val + p.val; omega
  | ⟨1, _⟩ => show win0_0.index t (1 : Fin 2) * 2048 + 1 * k.val = k.val; omega

/-- The odd activation block at point t, entry (p, k): row 2048t + 1024 + p of the activation array. -/
theorem blk1_at (c : Dev nD) (t : Fin cfg0.N) (p : Fin 1024) (k : Fin 2048) (h : 2048 * t.val + (1024 + p.val) < 16384) :
    iblk m c 1 t (ix2 p k) = m ((c : Thread nD τ).loc main_arg0) (ix2 (⟨2048 * t.val + (1024 + p.val), h⟩ : Fin 16384) k) := by
  unfold iblk
  show V m c main_arg0 (((cfg0.win 1).blk t).view.emb (ix2 p k)) = _
  rw [V_main_arg0]
  refine congrArg _ (funext fun a => Fin.ext ?_)
  obtain ⟨-, -, e2, e3, -⟩ := idx_facts t
  match a with
  | ⟨0, _⟩ => show win0_1.index t (0 : Fin 2) * 1024 + 1 * p.val = 2048 * t.val + (1024 + p.val); omega
  | ⟨1, _⟩ => show win0_1.index t (1 : Fin 2) * 2048 + 1 * k.val = k.val; omega

/-- The weight block, entry (k, j): the weight argument's entry (j, k). -/
theorem blk2_at (c : Dev nD) (t : Fin cfg0.N) (k : Fin 2048) (j : Fin 64) :
    iblk m c 2 t (ix2 k j) = m ((c : Thread nD τ).loc main_arg1) (ix2 j k) := by
  unfold iblk
  show V m c main_v1 (((cfg0.win 2).blk t).view.emb (ix2 k j)) = _
  have e : ((cfg0.win 2).blk t).view.emb (ix2 k j) = (ix2 k j : S2048x64.Idx) := by
    funext a; apply Fin.ext
    obtain ⟨-, -, -, -, e4, e5, -⟩ := idx_facts t
    match a with
    | ⟨0, _⟩ => show win0_2.index t (0 : Fin 2) * 2048 + 1 * k.val = k.val; omega
    | ⟨1, _⟩ => show win0_2.index t (1 : Fin 2) * 64 + 1 * j.val = j.val; omega
  rw [e, V_weights, truncf_apply, transpose_ix2_apply]

/-- The bias block, entry (0, j): the bias argument's entry j. -/
theorem blk3_at (c : Dev nD) (t : Fin cfg0.N) (j : Fin 64) :
    iblk m c 3 t (ix2 (0 : Fin 1) j) = m ((c : Thread nD τ).loc main_arg2) (ix1 j) := by
  unfold iblk
  show V m c main_v2 (((cfg0.win 3).blk t).view.emb (ix2 (0 : Fin 1) j)) = _
  have e : ((cfg0.win 3).blk t).view.emb (ix2 (0 : Fin 1) j) = (ix2 (0 : Fin 1) j : S1x64.Idx) := by
    funext a; apply Fin.ext
    obtain ⟨-, -, -, -, -, -, e6, e7, -⟩ := idx_facts t
    match a with
    | ⟨0, _⟩ => show win0_3.index t (0 : Fin 2) * 1 + 1 * 0 = 0; omega
    | ⟨1, _⟩ => show win0_3.index t (1 : Fin 2) * 64 + 1 * j.val = j.val; omega
  rw [e, V_bias]
  refine (shapeCast_addUnit_apply (![64] : Fin 1 → Nat) _ _ _).trans (congrArg _ ?_)
  funext a; match a with | ⟨0, _⟩ => rfl

end Cert.KernelIdeal.Hand

end
-- ==== Proof.Softmax.lean ====
/-
  The row-wise softmax of an affine map, as one function of the three arrays.

  A row of scores is l j = (∑ k, x (i, k) · W (j, k)) + b j for the 64 columns j. Its largest entry is the fold of
  max from −∞ over the 64 entries; the softmax at column j is exp (l j − max) divided by ∑ j', exp (l j' − max), every
  operation the exact one on the extended reals. No finiteness is used anywhere in this file: −∞ is the identity
  of max, and the sums and folds range over the same 64 entries on every side that is compared with this one.
-/
import Idealize.ShloMosaic.PureOps.Ideal
import Idealize.ShloMosaic.PureOps.Ideal.Laws
import Idealize.ShloMosaic.Lib.ValueIdx

noncomputable section

open scoped BigOperators

namespace Cert.Router

open Idealize.ShloMosaic Idealize.ShloMosaic.ValueIdx

/-- The largest of a row's 64 entries: the fold of max from −∞ over the columns. -/
def rowMax (l : Fin 64 → EReal) : EReal := (Finset.univ : Finset (Fin 64)).fold max ⊥ l

/-- The softmax of a row of 64 scores, at column j: exp (l j − max l) over the sum of the 64 such exponentials. -/
def softmaxRow (l : Fin 64 → EReal) (j : Fin 64) : EReal :=
  Ideal.div (Ideal.exp (l j - rowMax l)) (∑ j' : Fin 64, Ideal.exp (l j' - rowMax l))

/-- The whole result: at (r, j), the softmax over the columns of the scores of row r. -/
def G (x : (⟨2, ![16384, 2048]⟩ : Shape).Idx → EReal) (W : (⟨2, ![64, 2048]⟩ : Shape).Idx → EReal)
    (b : (⟨1, ![64]⟩ : Shape).Idx → EReal) : (⟨2, ![16384, 64]⟩ : Shape).Idx → EReal :=
  fun i => softmaxRow (fun j' => (∑ k : Fin 2048, x (ix2 (i 0 : Fin 16384) k) * W (ix2 j' k)) + b (ix1 j')) (i 1 : Fin 64)

/-- The result at explicit coordinates. -/
theorem G_ix2 (x : (⟨2, ![16384, 2048]⟩ : Shape).Idx → EReal) (W : (⟨2, ![64, 2048]⟩ : Shape).Idx → EReal)
    (b : (⟨1, ![64]⟩ : Shape).Idx → EReal) (r : Fin 16384) (j : Fin 64) :
    G x W b (ix2 r j) = softmaxRow (fun j' => (∑ k : Fin 2048, x (ix2 r k) * W (ix2 j' k)) + b (ix1 j')) j := rfl

end Cert.Router

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibRowMax.lean ====
/-
  A row's maximum read at a row, at the extended reals.

  The float maximum-reduction of an [a, b] array over its second axis, from the pattern of −∞, is at row r the fold of
  max from ⊥ over the b entries (r, j) of that row: for the vector unit's multi_reduction <maximumf>, and for the host's
  one-operand reduce with a maximum body from an initial value that denotes −∞. Both sides land on one and the same
  `Finset.fold` over the columns, so a kernel's and a reference's row maxima are compared entry by entry.
-/
import Idealize.ShloMosaic.PureOps.Ideal.Laws
import Idealize.ShloMosaic.Lib.ValueIdx

noncomputable section

namespace Cert.LibRowMax

open Idealize.ShloMosaic Idealize.ShloMosaic.ValueIdx

/-- The f32 pattern of −∞ denotes the bottom of the extended reals. -/
theorem negInf_f32 : Ideal.ofBits .f32 0xFF800000#32 = ⊥ := by simp [Ideal.ofBits, Ideal.ieee]

/-- The index (r, j) of an [a, b] array is the row index r with the column j inserted on the reduced axis. -/
theorem lift_row {a b : ℕ} (h : Shape.Reduces ⟨2, ![a, b]⟩ [1] ⟨1, ![a]⟩) (r : Fin a) (j : Fin b) :
    h.lift (ix1 r) j = ix2 r j := by
  funext d
  match d with
  | ⟨0, _⟩ => rfl
  | ⟨1, _⟩ => rfl

/-- The vector unit's maximum-reduction of an [a, b] vector over axis 1 from −∞, read at row r: the fold of max from ⊥
    over the row's entries. -/
theorem laneMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max ⊥ (fun j => src (ix2 r j)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [negInf_f32]
  exact congrArg (fun f => Finset.fold max ⊥ f (Finset.univ : Finset (Fin b))) (funext fun j => congrArg src (lift_row h r j))

/-- The host's reduce with a maximum body over axis 1 of an [a, b] array, from an initial value that denotes −∞, read at
    row r: the same fold. -/
theorem hostRowMax_apply {a b : ℕ} {u : Shape} (x : (⟨2, ![a, b]⟩ : Shape).Idx → Ideal .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (hinit : init (Shape.Idx.first hu) = ⊥) (r : Fin a) :
    Host.reduce (FloatOps.maximumf (F := Ideal) (φ := .f32)) x init h' hu (ix1 r)
      = (Finset.univ : Finset (Fin b)).fold max ⊥ (fun j => x (ix2 r j)) := by
  refine (Host.reduce_eq_fold_single (FloatOps.maximumf (F := Ideal) (φ := .f32)) x init h' h hu (ix1 r)).trans ?_
  rw [hinit]
  show (Finset.univ : Finset (Fin b)).fold max ⊥ (x ∘ h.lift (ix1 r)) = _
  exact congrArg (fun f => Finset.fold max ⊥ f (Finset.univ : Finset (Fin b))) (funext fun j => congrArg x (lift_row h r j))

end Cert.LibRowMax

end
-- ==== Proof.HalfIsSoftmax.lean ====
/-
  One half-block of the kernel's arithmetic is the row-wise softmax.

  The body computes, for a block x of 1024 rows, the scores l = x · w + b (a matrix product into the zero accumulator,
  the bias row spread over the rows), the row maxima (a maximum-reduction over the lanes from −∞, kept as a column
  and spread back over the lanes), e = exp (l − max), the row sums of e (kept and spread the same way), and e / sum.
  Read at (p, q) each of these is the corresponding entry of the softmax of row p of the scores: the layout moves read
  their operand at the row, the two reductions are the fold of max and the plain sum over the row's 64 entries, and the
  change of float format before the product is the identity on the extended reals.
-/
import proofs.«169328_g14070312862411_cont_week2b_1006_7_alg».proof.Proof.Gen.KernelIdeal.Skeleton
import proofs.«169328_g14070312862411_cont_week2b_1006_7_alg».proof.Proof.Softmax
import proofs.«169328_g14070312862411_cont_week2b_1006_7_alg».proof.Proof.LibPlainDot
import proofs.«169328_g14070312862411_cont_week2b_1006_7_alg».proof.Proof.LibLane
import proofs.«169328_g14070312862411_cont_week2b_1006_7_alg».proof.Proof.LibIndexRead
import proofs.«169328_g14070312862411_cont_week2b_1006_7_alg».proof.Proof.LibRowMax
import Idealize.ShloMosaic.Lib.ValueLayout

noncomputable section

open scoped BigOperators

namespace Cert.RouterHalf

open Idealize.ShloMosaic Idealize.ShloMosaic.ValueIdx Cert.KernelIdeal Cert.KernelIdeal.Gen Cert.Router

/-- The block of scores as the body spells it: the product of the block with the weights into the zero accumulator,
    plus the bias row spread over the 1024 rows. -/
def scoresBlock (w : Vec Ideal S2048x64 .bf16) (b : Vec Ideal S1x64 .f32) (x : Vec Ideal S1024x2048 .f32) :
    FVec Ideal S1024x64 .f32 :=
  addf (matmul dot_S1024x2048_S2048x64_S1024x64_1_0_0_1_n_n none (truncf .bf16 x bitsLt_bf16_f32)
      (shapeCast S2048x64 w shapeCasts_S2048x64_S2048x64 : FVec Ideal S2048x64 .bf16) (constant S1024x64 .f32 0x00000000#32))
    (broadcastTo S1024x64 (shapeCast S1x64 b shapeCasts_S1x64_S1x64 : FVec Ideal S1x64 .f32) broadcasts_S1x64_S1024x64)

/-- A score at (p, j): the inner product of row p of the block with column j of the weights, plus the bias at j. -/
theorem scoresBlock_at (w : Vec Ideal S2048x64 .bf16) (b : Vec Ideal S1x64 .f32) (x : Vec Ideal S1024x2048 .f32)
    (p : Fin 1024) (j : Fin 64) :
    scoresBlock w b x (ix2 p j) = (∑ k : Fin 2048, x (ix2 p k) * w (ix2 k j)) + b (ix2 (0 : Fin 1) j) := by
  unfold scoresBlock
  refine (addf_apply _ _ _).trans (congrArg₂ (· + ·) ?_ ?_)
  · refine (PlainDot.matmul_plain dot_S1024x2048_S2048x64_S1024x64_1_0_0_1_n_n rfl none _ _ p j).trans ?_
    rw [shapeCast_self]
    rfl
  · refine (broadcastTo_1b_ab_apply _ broadcasts_S1x64_S1024x64 p j).trans ?_
    rw [shapeCast_self]

/-- The row maxima of a block of scores, kept as a column and spread back over the 64 lanes. -/
def maxBlock (L : FVec Ideal S1024x64 .f32) : FVec Ideal S1024x64 .f32 :=
  broadcastTo S1024x64 (shapeCast S1024x1 (multiReduction .maximumf [1] S1024 L 0xFF800000#32 reduces_S1024x64_S1024
    (.inl rfl) rfl) shapeCasts_S1024_S1024x1) broadcasts_S1024x1_S1024x64

/-- At every lane of row p it is the largest of the row's 64 scores. -/
theorem maxBlock_at (L : FVec Ideal S1024x64 .f32) (p : Fin 1024) (j : Fin 64) :
    maxBlock L (ix2 p j) = rowMax (fun j' => L (ix2 p j')) := by
  unfold maxBlock
  exact (RowRead.broadcastTo_a1_ab_apply _ broadcasts_S1024x1_S1024x64 p j).trans
    ((RowRead.shapeCast_a_a1_apply _ shapeCasts_S1024_S1024x1 p 0).trans
      (LibRowMax.laneMax_apply L reduces_S1024x64_S1024 (.inl rfl) rfl p))

/-- The rest of the body over a block of scores L and a block M that is constant m along row p: exp (L − M) divided by
    its row sums (kept as a column and spread over the lanes), at (p, q). -/
theorem normalized_at (L M : FVec Ideal S1024x64 .f32) (p : Fin 1024) (m : EReal) (hM : ∀ j : Fin 64, M (ix2 p j) = m)
    (q : Fin 64) :
    divf (exp (subf L M)) (broadcastTo S1024x64 (shapeCast S1024x1 (multiReduction .add [1] S1024 (exp (subf L M))
        0x00000000#32 reduces_S1024x64_S1024 (.inl rfl) rfl) shapeCasts_S1024_S1024x1) broadcasts_S1024x1_S1024x64) (ix2 p q)
      = Ideal.div (Ideal.exp (L (ix2 p q) - m)) (∑ j' : Fin 64, Ideal.exp (L (ix2 p j') - m)) := by
  refine (divf_apply _ _ _).trans (congrArg₂ Ideal.div ?_ ?_)
  · show Ideal.exp (L (ix2 p q) - M (ix2 p q)) = _
    rw [hM q]
  · refine (RowRead.broadcastTo_a1_ab_apply _ broadcasts_S1024x1_S1024x64 p q).trans
      ((RowRead.shapeCast_a_a1_apply _ shapeCasts_S1024_S1024x1 p 0).trans
        ((LibLane.laneSum_apply _ reduces_S1024x64_S1024 (.inl rfl) rfl p).trans ?_))
    refine Finset.sum_congr rfl fun j' _ => ?_
    show Ideal.exp (L (ix2 p j') - M (ix2 p j')) = _
    rw [hM j']

/-- The body's arithmetic from the scores on: the softmax of each row. -/
def softmaxBlock (L : FVec Ideal S1024x64 .f32) : FVec Ideal S1024x64 .f32 :=
  divf (exp (subf L (maxBlock L))) (broadcastTo S1024x64 (shapeCast S1024x1 (multiReduction .add [1] S1024
    (exp (subf L (maxBlock L))) 0x00000000#32 reduces_S1024x64_S1024 (.inl rfl) rfl) shapeCasts_S1024_S1024x1)
    broadcasts_S1024x1_S1024x64)

theorem softmaxBlock_at (L : FVec Ideal S1024x64 .f32) (p : Fin 1024) (q : Fin 64) :
    softmaxBlock L (ix2 p q) = softmaxRow (fun j' => L (ix2 p j')) q := by
  unfold softmaxBlock
  exact normalized_at L (maxBlock L) p _ (fun j => maxBlock_at L p j) q

/-- The first half-block's arithmetic is the softmax of the scores block. -/
theorem pay3_eq (w : Vec Ideal S2048x64 .bf16) (b : Vec Ideal S1x64 .f32) (x : Vec Ideal S1024x2048 .f32) :
    k0_pay3 (F := Ideal) w b x = softmaxBlock (scoresBlock w b x) := rfl

/-- The second half-block's arithmetic is the same function of its own rows. -/
theorem pay4_eq (w : Vec Ideal S2048x64 .bf16) (b : Vec Ideal S1x64 .f32) (x : Vec Ideal S1024x2048 .f32) :
    k0_pay4 (F := Ideal) w b x = softmaxBlock (scoresBlock w b x) := rfl

/-- The first half-block's result at (p, q): the softmax, at column q, of the scores of row p. -/
theorem pay3_at (w : Vec Ideal S2048x64 .bf16) (b : Vec Ideal S1x64 .f32) (x : Vec Ideal S1024x2048 .f32)
    (p : Fin 1024) (q : Fin 64) :
    k0_pay3 (F := Ideal) w b x (ix2 p q)
      = softmaxRow (fun j' => (∑ k : Fin 2048, x (ix2 p k) * w (ix2 k j')) + b (ix2 (0 : Fin 1) j')) q := by
  rw [pay3_eq]
  exact (softmaxBlock_at _ p q).trans
    (congrArg (fun l => softmaxRow l q) (funext fun j' => scoresBlock_at w b x p j'))

/-- The second half-block's result at (p, q), likewise. -/
theorem pay4_at (w : Vec Ideal S2048x64 .bf16) (b : Vec Ideal S1x64 .f32) (x : Vec Ideal S1024x2048 .f32)
    (p : Fin 1024) (q : Fin 64) :
    k0_pay4 (F := Ideal) w b x (ix2 p q)
      = softmaxRow (fun j' => (∑ k : Fin 2048, x (ix2 p k) * w (ix2 k j')) + b (ix2 (0 : Fin 1) j')) q := by
  rw [pay4_eq]
  exact (softmaxBlock_at _ p q).trans
    (congrArg (fun l => softmaxRow l q) (funext fun j' => scoresBlock_at w b x p j'))

end Cert.RouterHalf

end
-- ==== Proof.KernelIdealValue.lean ====
/-
  The result array after the run, on the extended reals: the row-wise softmax of x·Wᵀ + b.

  With the exact operations of the extended reals each store's payload at entry (p, q) is the softmax, along the 64
  columns, of the scores of ONE row of the block it was computed from: score j' is ∑ₖ x(p, k)·w(k, j') + b(0, j'). Read
  through the blocks — activation rows 2048t + p and 2048t + 1024 + p, w(k, j') = W(j', k), b(0, j') = b(j') — the
  output block of point t is therefore rows 2048t … 2048t + 2047 of `G x W b`, the softmax of the scores of the whole
  arrays. The eight output blocks tile the result array (row r lies in block r / 2048), and each is written back once,
  so the array ends at `G x W b`.
-/
import proofs.«169328_g14070312862411_cont_week2b_1006_7_alg».proof.Proof.KernelIdealBlocks
import proofs.«169328_g14070312862411_cont_week2b_1006_7_alg».proof.Proof.HalfIsSoftmax

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The softmax of the scores of the argument arrays as launched on core `c`. -/
def Garr (c : Dev nD) : S16384x64.Idx → EReal :=
  Cert.Router.G (m ((c : Thread nD τ).loc main_arg0)) (m ((c : Thread nD τ).loc main_arg1)) (m ((c : Thread nD τ).loc main_arg2))

/-- The output block of point t, entry (p, q), sits at row 2048t + p of the result array. -/
theorem blk4_emb (t : Fin cfg0.N) (p : Fin 2048) (q : Fin 64) (h : 2048 * t.val + p.val < 16384) :
    ((cfg0.win 4).blk t).view.emb (ix2 p q) = (ix2 (⟨2048 * t.val + p.val, h⟩ : Fin 16384) q : S16384x64.Idx) := by
  funext a; apply Fin.ext
  obtain ⟨-, -, -, -, -, -, -, -, e8, e9⟩ := idx_facts t
  match a with
  | ⟨0, _⟩ => show win0_4.index t (0 : Fin 2) * 2048 + 1 * p.val = 2048 * t.val + p.val; omega
  | ⟨1, _⟩ => show win0_4.index t (1 : Fin 2) * 64 + 1 * q.val = q.val; omega

/-- What point t writes back is block t of the softmax of the scores. -/
theorem flushed4_eq (c : Dev nD) (t : Fin cfg0.N) :
    (dats m 0 c).flushed 4 t = ((cfg0.win 4).blk t).view.read (Elt Ideal) (Garr m c) := by
  show (cfg0.win 4).cut (grid0.coords t) ((dats m 0 c).after 4 t) = _
  rw [after4]
  have ht := point_lt t
  refine outBlock_eq (F := Ideal) _ _ _ _ (((cfg0.win 4).blk t).view.read (Elt Ideal) (Garr m c)) ?_ ?_
  · intro p q h
    have hrow : 2048 * t.val + p.val < 16384 := by have := p.isLt; omega
    rw [Cert.RouterHalf.pay3_at]
    show _ = Garr m c (((cfg0.win 4).blk t).view.emb (ix2 (⟨p.val, h⟩ : Fin 2048) q))
    rw [blk4_emb t ⟨p.val, h⟩ q hrow]
    unfold Garr
    rw [Cert.Router.G_ix2]
    refine congrArg (fun l => Cert.Router.softmaxRow l q) (funext fun j' => ?_)
    rw [blk3_at m c t j']
    refine congrArg (· + _) (Finset.sum_congr rfl fun k _ => ?_)
    rw [blk0_at m c t p k hrow, blk2_at m c t k j']
  · intro p q h
    have hrow : 2048 * t.val + (1024 + p.val) < 16384 := by have := p.isLt; omega
    rw [Cert.RouterHalf.pay4_at]
    show _ = Garr m c (((cfg0.win 4).blk t).view.emb (ix2 (⟨1024 + p.val, h⟩ : Fin 2048) q))
    rw [blk4_emb t ⟨1024 + p.val, h⟩ q hrow]
    unfold Garr
    rw [Cert.Router.G_ix2]
    refine congrArg (fun l => Cert.Router.softmaxRow l q) (funext fun j' => ?_)
    rw [blk3_at m c t j']
    refine congrArg (· + _) (Finset.sum_congr rfl fun k _ => ?_)
    rw [blk1_at m c t p k hrow, blk2_at m c t k j']

/-- An index of the result array is in point t's block iff each coordinate is in the block's range on its axis. -/
theorem mem_blk4 (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v3).slice (win0_4.rect t)).set ↔ _
  rw [View.set_slice_whole, Rect.mem_set_unit]
  exact Iff.rfl

/-- Every index of the result array lies in some point's block: row r in the block of point r / 2048. -/
theorem cover4 (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  have hq : (i 0).val / 2048 < 8 := by omega
  refine ⟨⟨(i 0).val / 2048, lt_of_lt_of_eq hq N_0.symm⟩, flush0_4 _, ?_⟩
  rw [mem_blk4]
  obtain ⟨-, -, -, -, -, -, -, -, e8, e9⟩ := idx_facts ⟨(i 0).val / 2048, lt_of_lt_of_eq hq N_0.symm⟩
  have e8' : win0_4.index ⟨(i 0).val / 2048, lt_of_lt_of_eq hq N_0.symm⟩ (0 : Fin 2) = (i 0).val / 2048 := e8
  intro a
  match a with
  | ⟨0, _⟩ =>
    show win0_4.index ⟨(i 0).val / 2048, lt_of_lt_of_eq hq N_0.symm⟩ (0 : Fin 2) * 2048 ≤ (i 0).val
      ∧ (i 0).val < win0_4.index ⟨(i 0).val / 2048, lt_of_lt_of_eq hq N_0.symm⟩ (0 : Fin 2) * 2048 + 2048
    omega
  | ⟨1, _⟩ =>
    show win0_4.index ⟨(i 0).val / 2048, lt_of_lt_of_eq hq N_0.symm⟩ (1 : Fin 2) * 64 ≤ (i 1).val
      ∧ (i 1).val < win0_4.index ⟨(i 0).val / 2048, lt_of_lt_of_eq hq N_0.symm⟩ (1 : Fin 2) * 64 + 64
    omega

/-- The result array after the run is the softmax of the scores of the argument arrays. -/
theorem final4 (c : Dev nD) : (dats m 0 c).arrAt 4 cfg0.N = Garr m c :=
  (dats m 0 c).arrAt_eq_of_cover 4 (Garr m c) (fun t _ => flushed4_eq m c t) cover4

/-- The run, read: the result array at the softmax of the scores, the argument arrays unchanged. -/
theorem value_run : θ_run defs (onTc (τ := τ) (main (F := Ideal))) ⟨m, fun _ => 0, ρ⟩ (fun r => ∀ c : Dev nD,
      r.2.mem ((c.tc : Thread nD τ).loc main_v3) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (final4 m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main (F := Ideal) m ρ)

end Cert.KernelIdeal.Hand

end
-- ==== Proof.RefIsSoftmax.lean ====
/-
  The reference computes the row-wise softmax.

  Stage by stage, at an entry (r, j) of the result: the scores are the inner product of row r of the first argument
  with row j of the second (the reference transposes the second argument and contracts over its rows) plus the bias at
  j; the row maximum is the host's reduce with a maximum body from −∞ over the row's 64 scores, and the extra maximum
  against a splat of −∞ changes nothing, −∞ being the identity of max; then exp (score − maximum), the sum of the
  row's 64 exponentials from the zero initial value, and the quotient. All of it holds on every extended real.
-/
import proofs.«169328_g14070312862411_cont_week2b_1006_7_alg».proof.Proof.Gen.ReferenceIdeal.Read
import proofs.«169328_g14070312862411_cont_week2b_1006_7_alg».proof.Proof.Softmax
import proofs.«169328_g14070312862411_cont_week2b_1006_7_alg».proof.Proof.LibRowMax

noncomputable section

open scoped BigOperators

namespace Cert.RouterRef

open Idealize.ShloMosaic Idealize.ShloMosaic.ValueIdx Cert.ReferenceIdeal Cert.ReferenceIdeal.Gen Cert.ReferenceIdeal.Read
  Cert.Router

variable (x0 : (⟨S16384x2048, .f32⟩ : BufTy).Contents (Elt Ideal)) (x1 : (⟨S64x2048, .f32⟩ : BufTy).Contents (Elt Ideal))
  (x2 : (⟨S64, .f32⟩ : BufTy).Contents (Elt Ideal))

/-- The scores of row r, as the specification writes them. -/
def row (r : Fin 16384) : Fin 64 → EReal :=
  fun j' => (∑ k : Fin 2048, x0 (ix2 r k) * x1 (ix2 j' k)) + x2 (ix1 j')

/-- The sum of the product and the spread bias, at (r, j): the score. -/
theorem v4_at (r : Fin 16384) (j : Fin 64) : val_main_v4 (F := Ideal) x0 x1 x2 (ix2 r j) = row x0 x1 x2 r j := by
  have el : ∀ k : Fin 2048, lidx_main_v1 (ix2 r j) k = ix2 r k := fun k =>
    funext fun a => Fin.ext (by match a with | ⟨0, _⟩ => rfl | ⟨1, _⟩ => rfl)
  have er : ∀ k : Fin 2048, idx_main_v0 (ridx_main_v1 (ix2 r j) k) = ix2 j k := fun k =>
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  rw [val_main_v4_apply, val_main_v1_apply, val_main_v3_apply, val_main_v2_apply, eb]
  simp only [val_main_v0_apply, el, er]
  rfl

/-- The row maximum after the extra maximum against −∞: the largest of the row's 64 scores. -/
theorem v7_at (r : Fin 16384) : val_main_v7 (F := Ideal) x0 x1 x2 (ix1 r) = rowMax (row x0 x1 x2 r) := by
  have h5 : val_main_v5 (F := Ideal) x0 x1 x2 (ix1 r) = rowMax (row x0 x1 x2 r) := by
    unfold val_main_v5
    refine (LibRowMax.hostRowMax_apply (val_main_v4 (F := Ideal) x0 x1 x2) (val_main_cst (F := Ideal))
      reducesTo_S16384x64_S16384_d1 (by decide) h_S_ ?_ r).trans ?_
    · rw [val_main_cst_apply]
      exact LibRowMax.negInf_f32
    · exact congrArg (fun f => Finset.fold max ⊥ f (Finset.univ : Finset (Fin 64))) (funext fun j => v4_at x0 x1 x2 r j)
  rw [val_main_v7_apply, val_main_v6_apply, val_main_cst_0_apply, h5]
  show max (Ideal.ofBits .f32 0xFF800000#32) _ = _
  rw [LibRowMax.negInf_f32]
  exact max_eq_right bot_le

/-- The maximum kept as a column and spread over the 64 columns, at (r, j). -/
theorem v9_at (r : Fin 16384) (j : Fin 64) : val_main_v9 (F := Ideal) x0 x1 x2 (ix2 r j) = rowMax (row x0 x1 x2 r) := by
  have e : idx_main_v8 (idx_main_v9 (ix2 r j)) = ix1 r :=
    funext fun a => Fin.ext (by match a with | ⟨0, _⟩ => rfl)
  rw [val_main_v9_apply, val_main_v8_apply, e, v7_at]

/-- The exponential of the score minus the row maximum, at (r, j). -/
theorem v11_at (r : Fin 16384) (j : Fin 64) :
    val_main_v11 (F := Ideal) x0 x1 x2 (ix2 r j) = Ideal.exp (row x0 x1 x2 r j - rowMax (row x0 x1 x2 r)) := by
  rw [val_main_v11_apply, val_main_v10_apply, v4_at, v9_at]
  rfl

/-- The sum of the row's 64 exponentials from the zero initial value, at r. -/
theorem v12_at (r : Fin 16384) :
    val_main_v12 (F := Ideal) x0 x1 x2 (ix1 r) = ∑ j' : Fin 64, Ideal.exp (row x0 x1 x2 r j' - rowMax (row x0 x1 x2 r)) := by
  have e : ∀ k : Fin 64, idx_main_v12 (ix1 r) k = ix2 r k := fun k =>
    funext fun a => Fin.ext (by match a with | ⟨0, _⟩ => rfl | ⟨1, _⟩ => rfl)
  rw [val_main_v12_apply, val_main_cst_1_apply]
  show Ideal.ofBits .f32 0x00000000#32 + _ = _
  rw [Ideal.ofBits_zero_f32, zero_add]
  exact Finset.sum_congr rfl fun k _ => by rw [e k, v11_at]

/-- The row sum kept as a column and spread over the 64 columns, at (r, j). -/
theorem v14_at (r : Fin 16384) (j : Fin 64) :
    val_main_v14 (F := Ideal) x0 x1 x2 (ix2 r j) = ∑ j' : Fin 64, Ideal.exp (row x0 x1 x2 r j' - rowMax (row x0 x1 x2 r)) := by
  have e : idx_main_v13 (idx_main_v14 (ix2 r j)) = ix1 r :=
    funext fun a => Fin.ext (by match a with | ⟨0, _⟩ => rfl)
  rw [val_main_v14_apply, val_main_v13_apply, e, v12_at]

/-- The reference's last stage is the softmax of the affine scores, entry by entry. -/
theorem ref_is_softmax : val_main_v15 (F := Ideal) x0 x1 x2 = G x0 x1 x2 := by
  funext i
  obtain ⟨r, j, rfl⟩ : ∃ (r : Fin 16384) (j : Fin 64), i = ix2 r j := ⟨i 0, i 1, eq_ix2 i⟩
  rw [val_main_v15_apply, v11_at, v14_at]
  rfl

end Cert.RouterRef

end
-- ==== Proof.lean ====
/-
  The claim: a fused router kernel against its reference, on the extended reals.

  Both programs compute, for an activation array x (16384 × 2048), a weight matrix W (64 × 2048) and a bias b (64), the
  row-wise softmax of the scores x·Wᵀ + b: with l(r, j) = ∑ₖ x(r, k)·W(j, k) + b(j) and M(r) the maximum of row r of l,
  the result is exp(l(r, j) − M(r)) / ∑ⱼ′ exp(l(r, j′) − M(r)).

  The kernel narrows x and Wᵀ to a shorter float format before multiplying (the identity on the extended reals) and
  walks the rows in 8 steps of 2048, each step reading its rows as two 1024-row blocks of the one activation array and
  writing one 2048-row block of the result; the reference computes the same expression on the whole arrays, taking one
  more maximum with −∞, which changes nothing. The two agree entry by entry with no appeal to finiteness: only the
  order in which the rows are visited differs, and every row's 64 scores, their maximum and their sum are the same
  expressions on both sides.

  The three frame conjuncts: each kernel program's run (every weakly fair execution terminates, nothing faults) leaves
  the three argument arrays as launched — the activation array is only ever read by the pipeline, the weights and the
  bias are read by host operations only —, and the reference's is its run with the result dropped. The ideal pass
  rewrote nothing, so the idealization conjunct is trivial.
-/
import proofs.«169328_g14070312862411_cont_week2b_1006_7_alg».proof.Defs
import proofs.«169328_g14070312862411_cont_week2b_1006_7_alg».proof.Proof.Gen.Kernel
import proofs.«169328_g14070312862411_cont_week2b_1006_7_alg».proof.Proof.Gen.KernelIdeal
import proofs.«169328_g14070312862411_cont_week2b_1006_7_alg».proof.Proof.Gen.ReferenceIdeal
import proofs.«169328_g14070312862411_cont_week2b_1006_7_alg».proof.Proof.Gen.Pre_finite_inputs
import proofs.«169328_g14070312862411_cont_week2b_1006_7_alg».proof.Proof.Gen.ReferenceIdeal.Read
import proofs.«169328_g14070312862411_cont_week2b_1006_7_alg».proof.Proof.KernelRun
import proofs.«169328_g14070312862411_cont_week2b_1006_7_alg».proof.Proof.KernelIdealValue
import proofs.«169328_g14070312862411_cont_week2b_1006_7_alg».proof.Proof.RefIsSoftmax

noncomputable section

namespace Cert.Proof

open Idealize.ShloMosaic Idealize.SL.Sem

/-- The word-level kernel runs and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories agreeing on the arguments, the kernel's result array and the reference's both
    end at the softmax of the scores of the arguments. -/
theorem algebraic : Cert.algebraic_KernelIdeal_ReferenceIdeal := by
  intro m ρ m' ρ' _ hagree
  refine ⟨fun c => Cert.KernelIdeal.Hand.Garr m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _ _).trans ((Cert.RouterRef.ref_is_softmax _ _ _).trans ?_)
  unfold Cert.KernelIdeal.Hand.Garr
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
